-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x2048 : Shape := ⟨4, ![1, 16, 2048, 2048]⟩
abbrev S1x1x2048x2048 : Shape := ⟨4, ![1, 1, 2048, 2048]⟩
abbrev S1x16x2048x64 : Shape := ⟨4, ![1, 16, 2048, 64]⟩
abbrev S_ : Shape := ⟨0, ![]⟩

class Facts : Prop where
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_
  h_S_ : 0 < S_.numel
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_

variable [Facts]

def fn {F : FTy → Type} [FloatOps F] (main_arg0 : FVec F S1x16x2048x2048 .f32) (main_arg1 : IVec S1x1x2048x2048 32) (main_arg2 : FVec F S1x16x2048x64 .f32) : IVec S_ 1 :=
  let main_v0 : FVec F S1x16x2048x2048 .f32 := Host.absf main_arg0
  let main_cst : FVec F S_ .f32 := constant S_ .f32 0x7F800000#32
  let main_v1 : FVec F S1x16x2048x2048 .f32 := broadcastInDim S1x16x2048x2048 ![] bcast_S_S1x16x2048x2048 main_cst
  let main_v2 : IVec S1x16x2048x2048 1 := cmpf .olt main_v0 main_v1
  let main_c : IVec S_ 1 := constantI S_ 1 1#1
  let main_v3 : IVec S_ 1 := (fun x v => Host.reduce IntOp.andi x v reducesTo_S1x16x2048x2048_S_d0_1_2_3 h_S_) main_v2 main_c
  let main_v4 : FVec F S1x16x2048x64 .f32 := Host.absf main_arg2
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  main_v8
-- ==== Kernel.lean ====
abbrev S1x16x2048x2048 : Shape := ⟨4, ![1, 16, 2048, 2048]⟩
abbrev S1x1x2048x2048 : Shape := ⟨4, ![1, 1, 2048, 2048]⟩
abbrev S1x16x2048x64 : Shape := ⟨4, ![1, 16, 2048, 64]⟩
abbrev S16x2048x2048 : Shape := ⟨3, ![16, 2048, 2048]⟩
abbrev S2048x2048 : Shape := ⟨2, ![2048, 2048]⟩
abbrev S16x2048x64 : Shape := ⟨3, ![16, 2048, 64]⟩
abbrev S1x256x2048 : Shape := ⟨3, ![1, 256, 2048]⟩
abbrev S1x2048x64 : Shape := ⟨3, ![1, 2048, 64]⟩
abbrev S1x256x64 : Shape := ⟨3, ![1, 256, 64]⟩
abbrev S256x2048 : Shape := ⟨2, ![256, 2048]⟩
abbrev S2048x64 : Shape := ⟨2, ![2048, 64]⟩
abbrev S256x64 : Shape := ⟨2, ![256, 64]⟩

abbrev nBuf : Space → Nat
  | .hbm => 8
  | .vmem => 7
  | .smem => 0
  | _ => 0

abbrev bufTy : (tb : Table) → Fin (tcTables nBuf tb) → BufTy
  | .hbm, ⟨0, _⟩ => ⟨S1x16x2048x2048, .f32⟩
  | .hbm, ⟨1, _⟩ => ⟨S1x1x2048x2048, .i32⟩
  | .hbm, ⟨2, _⟩ => ⟨S1x16x2048x64, .f32⟩
  | .hbm, ⟨3, _⟩ => ⟨S16x2048x2048, .f32⟩
  | .hbm, ⟨4, _⟩ => ⟨S2048x2048, .i32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .i32⟩
  | .local _ .vmem, ⟨3, _⟩ => ⟨S1x2048x64, .f32⟩
  | .local _ .vmem, ⟨4, _⟩ => ⟨S1x2048x64, .f32⟩
  | .local _ .vmem, ⟨5, _⟩ => ⟨S1x256x64, .f32⟩
  | .local _ .vmem, ⟨6, _⟩ => ⟨S1x256x64, .f32⟩
  | _, _ => ⟨S1x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : Index := Scalar.indexCast v0
  let c0 : Index := 0#32
  ![v1.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x2048_S16x2048x2048 : S1x16x2048x2048.ShapeCasts S16x2048x2048
  shapeCasts_S1x1x2048x2048_S2048x2048 : S1x1x2048x2048.ShapeCasts S2048x2048
  shapeCasts_S1x16x2048x64_S16x2048x64 : S1x16x2048x64.ShapeCasts S16x2048x64
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  shapeCasts_S16x2048x64_S1x16x2048x64 : S16x2048x64.ShapeCasts S1x16x2048x64
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S256x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x2048x2048.size a
  hwx0_0 : ∀ i : grid0.Coords, EltTy.bits .f32 = 32 ∨ (Rect.block (s := S16x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .i32 = 32 ∨ (Rect.block (s := S2048x2048) S2048x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x2048 : Shape := ⟨4, ![1, 16, 2048, 2048]⟩
abbrev S1x1x2048x2048 : Shape := ⟨4, ![1, 1, 2048, 2048]⟩
abbrev S1x16x2048x64 : Shape := ⟨4, ![1, 16, 2048, 64]⟩

abbrev nBuf : Space → Nat
  | .hbm => 7
  | .vmem => 0
  | .smem => 0
  | _ => 0

abbrev bufTy : (tb : Table) → Fin (tcTables nBuf tb) → BufTy
  | .hbm, ⟨0, _⟩ => ⟨S1x16x2048x2048, .f32⟩
  | .hbm, ⟨1, _⟩ => ⟨S1x1x2048x2048, .i32⟩
  | .hbm, ⟨2, _⟩ => ⟨S1x16x2048x64, .f32⟩
  | .hbm, ⟨3, _⟩ => ⟨S1x1x2048x2048, .f32⟩
  | .hbm, ⟨4, _⟩ => ⟨S1x16x2048x2048, .f32⟩
  | .hbm, ⟨5, _⟩ => ⟨S1x16x2048x2048, .f32⟩
  | .hbm, ⟨6, _⟩ => ⟨S1x16x2048x64, .f32⟩
  | _, _ => ⟨S1x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S1x1x2048x2048_S1x16x2048x2048_0_1_2_3 : S1x1x2048x2048.BroadcastsInDim S1x16x2048x2048 (![0, 1, 2, 3] : Fin 4 → Fin S1x16x2048x2048.rank)
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Spec.lean ====
/-
  The specification: a masked batched matrix product over the extended reals.

  For a float array `a` of shape [1, 16, 2048, 2048], an integer mask `mk` of shape [1, 1, 2048, 2048] (shared by the
  sixteen heads) and a float array `b` of shape [1, 16, 2048, 64], the result at (u, h, i, d) is
      Σ_j (a[u, h, i, j] · real(mk[u, u, i, j])) · b[u, h, j, d],
  the integer read signed and exactly. Both programs are shown to compute this one function.
-/
import Idealize.ShloMosaic.PureOps.Ideal
import Idealize.ShloMosaic.Lib.ValueIdx

noncomputable section

namespace Cert.MaskedMatmul

open Idealize.ShloMosaic Idealize.ShloMosaic.ValueIdx

/-- One term of the contraction: the left entry at row `i`, column `j` of head `h`, times the mask at (`i`, `j`)
    read as a real, times the right entry at row `j`, column `d` of head `h`. -/
def term (a : FVec Ideal ⟨4, ![1, 16, 2048, 2048]⟩ .f32) (mk : IVec ⟨4, ![1, 1, 2048, 2048]⟩ 32)
    (b : FVec Ideal ⟨4, ![1, 16, 2048, 64]⟩ .f32) (h : Fin 16) (i : Fin 2048) (d : Fin 64) (j : Fin 2048) : EReal :=
  (a (ix4 (0 : Fin 1) h i j) * FloatOps.sitofp (F := Ideal) .f32 (mk (ix4 (0 : Fin 1) (0 : Fin 1) i j)))
    * b (ix4 (0 : Fin 1) h j d)

/-- The masked product: entry (u, h, i, d) is the sum of the terms over the contracted index. -/
def maskedProduct (a : FVec Ideal ⟨4, ![1, 16, 2048, 2048]⟩ .f32) (mk : IVec ⟨4, ![1, 1, 2048, 2048]⟩ 32)
    (b : FVec Ideal ⟨4, ![1, 16, 2048, 64]⟩ .f32) : FVec Ideal ⟨4, ![1, 16, 2048, 64]⟩ .f32 :=
  fun x => ∑ j : Fin 2048, term a mk b (x 1) (x 2) (x 3) j

theorem maskedProduct_apply (a : FVec Ideal ⟨4, ![1, 16, 2048, 2048]⟩ .f32) (mk : IVec ⟨4, ![1, 1, 2048, 2048]⟩ 32)
    (b : FVec Ideal ⟨4, ![1, 16, 2048, 64]⟩ .f32) (u : Fin 1) (h : Fin 16) (i : Fin 2048) (d : Fin 64) :
    maskedProduct a mk b (ix4 u h i d) = ∑ j : Fin 2048, term a mk b h i d j := rfl

end Cert.MaskedMatmul

end
-- ==== Proof.RefValue.lean ====
/-
  The reference computes the specification.

  The reference converts the mask to floats, repeats it over the sixteen heads, multiplies the left operand by it entry
  by entry, and contracts the last axis of the product with the third axis of the right operand, batched over the two
  leading axes. Read at an index (u, h, i, d) this is  Σ_j (a[u, h, i, j] · real(mask[0, 0, i, j])) · b[u, h, j, d].
-/
import proofs.«149509_g11879879542650_cont_sun_m_840_4_alg».proof.Proof.Gen.ReferenceIdeal.Read
import proofs.«149509_g11879879542650_cont_sun_m_840_4_alg».proof.Proof.Spec

noncomputable section

namespace Cert.ReferenceIdeal.RefValue

open Cert.ReferenceIdeal Cert.ReferenceIdeal.Read Idealize.ShloMosaic Idealize.ShloMosaic.ValueIdx

/-- The reference's result, as a function of its three arguments, is the masked product. -/
theorem result_eq (x0 : (⟨S1x16x2048x2048, .f32⟩ : BufTy).Contents (Elt Ideal)) (x1 : (⟨S1x1x2048x2048, .i32⟩ : BufTy).Contents (Elt Ideal))
    (x2 : (⟨S1x16x2048x64, .f32⟩ : BufTy).Contents (Elt Ideal)) :
    val_main_v3 (F := Ideal) x0 x1 x2 = Cert.MaskedMatmul.maskedProduct x0 x1 x2 := by
  funext i
  obtain ⟨u, h, r, d, rfl⟩ : ∃ (u : Fin 1) (h : Fin 16) (r : Fin 2048) (d : Fin 64), i = ix4 u h r d :=
    ⟨i 0, i 1, i 2, i 3, eq_ix4 i⟩
  obtain rfl : u = 0 := Fin.ext (by omega)
  rw [val_main_v3_apply, Cert.MaskedMatmul.maskedProduct_apply]
  refine Finset.sum_congr rfl fun k _ => ?_
  rw [val_main_v2_apply, val_main_v1_apply, val_main_v0_apply]
  have e1 : lidx_main_v3 (ix4 (0 : Fin 1) h r d) k = ix4 (0 : Fin 1) h r k := funext fun a => Fin.ext (by
    match a with | ⟨0, _⟩ => rfl | ⟨1, _⟩ => rfl | ⟨2, _⟩ => rfl | ⟨3, _⟩ => rfl)
  have e2 : ridx_main_v3 (ix4 (0 : Fin 1) h r d) k = ix4 (0 : Fin 1) h k d := funext fun a => Fin.ext (by
    match a with | ⟨0, _⟩ => rfl | ⟨1, _⟩ => rfl | ⟨2, _⟩ => rfl | ⟨3, _⟩ => rfl)
  have e3 : idx_main_v1 (ix4 (0 : Fin 1) h r k) = ix4 (0 : Fin 1) (0 : Fin 1) r k := funext fun a => Fin.ext (by
    match a with | ⟨0, _⟩ => rfl | ⟨1, _⟩ => rfl | ⟨2, _⟩ => rfl | ⟨3, _⟩ => rfl)
  rw [e1, e2, e3]
  rfl

end Cert.ReferenceIdeal.RefValue

end
-- ==== Proof.BodyPiece.lean ====
/-
  What one grid step leaves in the output's staging buffer.

  The body stores once, over the whole [1, 256, 64] staging buffer of the output. What it stores is a function of
  three loads: the whole staging buffers of the left and right operands, and 256 rows of the mask's staging buffer
  starting at the row offset of the step (256 times the step's second grid coordinate), all its columns.
-/
import proofs.«149509_g11879879542650_cont_sun_m_840_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero3 : (![0, 0, 0] : Fin 3 → Nat) = fun _ => 0 := funext fun a => by fin_cases a <;> rfl

/-- The staging buffer of the output after the body, for the operands' staging buffers holding `x0`, `x1`, `x2`:
    the stored value of `x0`, `x2` and the rows of `x1` at the step's row offset. -/
theorem left_eq (c : Dev nD) (i : grid0.Coords) (arg2 : Memref sig .tc .vmem S1x256x2048 .f32) (harg2 : arg2.IsWhole)
    (arg3 : Memref sig .tc .vmem S2048x2048 .i32) (harg3 : arg3.IsWhole) (arg4 : Memref sig .tc .vmem S1x2048x64 .f32)
    (harg4 : arg4.IsWhole) (arg5 : Memref sig .tc .vmem S1x256x64 .f32) (harg5 : arg5.IsWhole)
    (x0 : Vec F S1x256x2048 .f32) (x1 : Vec F S2048x2048 .i32) (x2 : Vec F S1x2048x64 .f32) :
    out0_A_3 c i arg2 harg2 arg3 harg3 arg4 harg4 arg5 harg5 x0 x1 x2
      = k0_pay1 (View.ld x1 (Rect.unit (s := S2048x2048) (k0_off1 i) S256x2048.size (k0_off1_inb i))) x0 x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero3]
  simp only [View.readAt_eq_ld, harg2.read_unread, harg3.read_unread, harg4.read_unread,
    View.ld_unit_zero (S := S1x256x2048) zero3, View.ld_unit_zero (S := S1x2048x64) zero3]

end Cert.KernelIdeal.Body

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Payload.lean ====
/-
  What one grid step stores, entry by entry, over the extended reals.

  The body multiplies its [256, 2048] block of the left operand, entry by entry, by the matching 256 rows of the mask
  read as reals, and takes the matrix product of that with its [2048, 64] block of the right operand into a zero
  accumulator. So entry (r, d) of what it stores is  Σ_k (left[r, k] · real(mask[r, k])) · right[k, d].
-/
import proofs.«149509_g11879879542650_cont_sun_m_840_4_alg».proof.Proof.Gen.KernelIdeal.Skeleton
import proofs.«149509_g11879879542650_cont_sun_m_840_4_alg».proof.Proof.LibLayout
import Idealize.ShloMosaic.Lib.ValueLayout

noncomputable section

namespace Cert.KernelIdeal.Payload

open Cert.KernelIdeal Cert.KernelIdeal.Gen Idealize.ShloMosaic Idealize.ShloMosaic.ValueIdx

/-- The stored block at (u, r, d): the sum over the contracted index of the masked left entry times the right entry. -/
theorem stored_apply (v2 : Vec Ideal S256x2048 .i32) (v5 : Vec Ideal S1x256x2048 .f32) (v8 : Vec Ideal S1x2048x64 .f32)
    (u : Fin 1) (r : Fin 256) (d : Fin 64) :
    k0_pay1 (F := Ideal) v2 v5 v8 (ix3 u r d)
      = ∑ k : Fin 2048, (v5 (ix3 (0 : Fin 1) r k) * FloatOps.sitofp (F := Ideal) .f32 (v2 (ix2 r k))) * v8 (ix3 (0 : Fin 1) k d) := by
  unfold k0_pay1
  refine (shapeCast_ab_1ab_apply _ _ u r d).trans ?_
  refine (Cert.LibLayout.matmul_rows_cols_apply dot_S256x2048_S2048x64_S256x64_1_0_0_1_n_n rfl rfl rfl rfl
    (fun _ _ => rfl) (fun _ _ => rfl) none _ _ r d).trans ?_
  refine Finset.sum_congr rfl fun k _ => ?_
  rw [shapeCast_1ab_ab_apply _ _ k d]
  refine congrArg (· * v8 (ix3 (0 : Fin 1) k d)) ?_
  show shapeCast S256x2048 v5 _ (ix2 r k) * FloatOps.sitofp (F := Ideal) .f32 (shapeCast S256x2048 v2 _ (ix2 r k)) = _
  rw [shapeCast_1ab_ab_apply _ _ r k, shapeCast_self]

end Cert.KernelIdeal.Payload

end
-- ==== Proof.Region.lean ====
/-
  The region's result in the shapes the region works in, and its reading in the shapes of the arguments.

  The region sees the left operand as [16, 2048, 2048], the mask as [2048, 2048] and the right operand as
  [16, 2048, 64] (the arguments with their unit axes dropped), and writes a [16, 2048, 64] array whose entry (h, i, d) is
      Σ_k (A[h, i, k] · real(M[i, k])) · B[h, k, d].
  Dropping and restoring unit axes does not move an entry's row-major position, so this array with a leading unit
  axis restored is the masked product of the arguments.
-/
import proofs.«149509_g11879879542650_cont_sun_m_840_4_alg».proof.Proof.Spec
import Idealize.ShloMosaic.Lib.Pipeline.Value
import Idealize.ShloMosaic.Lib.ValueLayout

noncomputable section

namespace Cert.MaskedMatmul

open Idealize.ShloMosaic Idealize.ShloMosaic.ValueIdx

/-- The region's result from the three arrays it reads. -/
def regionResult (A : FVec Ideal ⟨3, ![16, 2048, 2048]⟩ .f32) (M : IVec ⟨2, ![2048, 2048]⟩ 32)
    (B : FVec Ideal ⟨3, ![16, 2048, 64]⟩ .f32) : FVec Ideal ⟨3, ![16, 2048, 64]⟩ .f32 :=
  fun x => ∑ k : Fin 2048, (A (ix3 (x 0) (x 1) k) * FloatOps.sitofp (F := Ideal) .f32 (M (ix2 (x 1) k))) * B (ix3 (x 0) k (x 2))

theorem regionResult_apply (A : FVec Ideal ⟨3, ![16, 2048, 2048]⟩ .f32) (M : IVec ⟨2, ![2048, 2048]⟩ 32)
    (B : FVec Ideal ⟨3, ![16, 2048, 64]⟩ .f32) (h : Fin 16) (i : Fin 2048) (d : Fin 64) :
    regionResult A M B (ix3 h i d)
      = ∑ k : Fin 2048, (A (ix3 h i k) * FloatOps.sitofp (F := Ideal) .f32 (M (ix2 i k))) * B (ix3 h k d) := rfl

/-- A [1, 1, a, b] array viewed as [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The region's result over the arguments with their unit axes dropped, with the leading unit axis restored, is the
    masked product of the arguments. -/
theorem regionResult_reshaped (a : FVec Ideal ⟨4, ![1, 16, 2048, 2048]⟩ .f32) (mk : IVec ⟨4, ![1, 1, 2048, 2048]⟩ 32)
    (b : FVec Ideal ⟨4, ![1, 16, 2048, 64]⟩ .f32)
    (ha : (⟨4, ![1, 16, 2048, 2048]⟩ : Shape).ShapeCasts ⟨3, ![16, 2048, 2048]⟩)
    (hm : (⟨4, ![1, 1, 2048, 2048]⟩ : Shape).ShapeCasts ⟨2, ![2048, 2048]⟩)
    (hb : (⟨4, ![1, 16, 2048, 64]⟩ : Shape).ShapeCasts ⟨3, ![16, 2048, 64]⟩)
    (ho : (⟨3, ![16, 2048, 64]⟩ : Shape).ShapeCasts ⟨4, ![1, 16, 2048, 64]⟩) :
    shapeCast ⟨4, ![1, 16, 2048, 64]⟩
        (regionResult (shapeCast ⟨3, ![16, 2048, 2048]⟩ a ha) (shapeCast ⟨2, ![2048, 2048]⟩ mk hm)
          (shapeCast ⟨3, ![16, 2048, 64]⟩ b hb)) ho
      = maskedProduct a mk b := by
  funext x
  obtain ⟨u, h, i, d, rfl⟩ : ∃ (u : Fin 1) (h : Fin 16) (i : Fin 2048) (d : Fin 64), x = ix4 u h i d :=
    ⟨x 0, x 1, x 2, x 3, eq_ix4 x⟩
  rw [shapeCast_abc_1abc_apply _ ho u h i d, regionResult_apply, maskedProduct_apply]
  refine Finset.sum_congr rfl fun k _ => ?_
  rw [shapeCast_1abc_abc_apply a ha h i k, shapeCast_11ab_ab_apply mk hm i k, shapeCast_1abc_abc_apply b hb h k d]
  rfl

end Cert.MaskedMatmul

end
-- ==== Proof.KernelValue.lean ====
/-
  The kernel's result array over the extended reals.

  Step (h, i) of the 16 × 8 grid reads block (h, i, 0) of the left operand (256 rows, all columns), the whole mask,
  and block (h, 0, 0) of the right operand, and writes block (h, i, 0) of the [16, 2048, 64] result. By the reading of
  the stored block, entry (r, d) of what the step writes is the sum over k of
  left[h, 256·i + r, k] · real(mask[256·i + r, k]) · right[h, k, d]: the block of ONE array, the region's result. The
  128 blocks tile the result, so after the region the result array holds it everywhere; the operation after the
  region only restores a leading unit axis.
-/
import proofs.«149509_g11879879542650_cont_sun_m_840_4_alg».proof.Proof.BodyPiece
import proofs.«149509_g11879879542650_cont_sun_m_840_4_alg».proof.Proof.Payload
import proofs.«149509_g11879879542650_cont_sun_m_840_4_alg».proof.Proof.Region
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.MaskedMatmul Idealize.ShloMosaic.StableHlo

variable (m : (ℓ : Loc nD τ sig) → Buf (Elt Ideal) ℓ) (ρ : Dev nD → PrngReg)

/-! ## The arrays the region finds: the arguments with their unit axes dropped -/

theorem found_left (c : Dev nD) : (V m c main_v0 : S16x2048x2048.Idx → EReal)
    = shapeCast S16x2048x2048 (m ((c : Thread nD τ).loc main_arg0)) shapeCasts_S1x16x2048x2048_S16x2048x2048 := by
  show StableHlo.after hostOps0 (fun b => m (c, b)) (Proc.devRef .tc main_v0) = _
  after_results
  rfl

theorem found_mask (c : Dev nD) : (V m c main_v1 : S2048x2048.Idx → BitVec 32)
    = shapeCast S2048x2048 (m ((c : Thread nD τ).loc main_arg1)) shapeCasts_S1x1x2048x2048_S2048x2048 := by
  show StableHlo.after hostOps0 (fun b => m (c, b)) (Proc.devRef .tc main_v1) = _
  after_results
  rfl

theorem found_right (c : Dev nD) : (V m c main_v2 : S16x2048x64.Idx → EReal)
    = shapeCast S16x2048x64 (m ((c : Thread nD τ).loc main_arg2)) shapeCasts_S1x16x2048x64_S16x2048x64 := by
  show StableHlo.after hostOps0 (fun b => m (c, b)) (Proc.devRef .tc main_v2) = _
  after_results
  rfl

/-- The region's result, from the arrays it finds. -/
def result (c : Dev nD) : Buf (Elt Ideal) ((c : Thread nD τ).loc main_v3) :=
  regionResult (V m c main_v0) (V m c main_v1) (V m c main_v2)

/-! ## The blocks of a step -/

/-- The printed index maps over the grid: the left operand's block moves with the output's on the first two axes, the
    right operand's on the first, the mask's block is the whole array, and the row offset of the mask's load is 256
    times the output's second block index. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 16 ∧ win0_3.index t (1 : Fin 3) < 8
    ∧ k0_off1 (grid0.coords t) (0 : Fin 2) = win0_3.index t (1 : Fin 3) * 256 ∧ k0_off1 (grid0.coords t) (1 : Fin 2) = 0 :=
  (by decide +kernel : ∀ t : Fin grid0.N, _)

/-- Every block of the result is some step's. -/
theorem index_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- The left operand's block at a step, entry (0, r, k): the array the region finds, at the block's place. -/
theorem left_block (c : Dev nD) (t : Fin cfg0.N) (r : Fin 256) (k : Fin 2048) (j : S16x2048x2048.Idx)
    (h0 : (j 0).val = win0_0.index t (0 : Fin 3)) (h1 : (j 1).val = win0_0.index t (1 : Fin 3) * 256 + r.val)
    (h2 : (j 2).val = win0_0.index t (2 : Fin 3) * 2048 + k.val) :
    iblk m c 0 t (ix3 (0 : Fin 1) r k) = V m c main_v0 j := by
  show V m c main_v0 (((cfg0.win 0).blk t).view.emb (ix3 (0 : Fin 1) r k)) = V m c main_v0 j
  refine congrArg (V m c main_v0) (funext fun a => Fin.ext ?_)
  match a with
  | ⟨0, _⟩ => show win0_0.index t (0 : Fin 3) * 1 + 1 * 0 = (j 0).val; omega
  | ⟨1, _⟩ => show win0_0.index t (1 : Fin 3) * 256 + 1 * r.val = (j 1).val; omega
  | ⟨2, _⟩ => show win0_0.index t (2 : Fin 3) * 2048 + 1 * k.val = (j 2).val; omega

/-- The right operand's block at a step, entry (0, k, d). -/
theorem right_block (c : Dev nD) (t : Fin cfg0.N) (k : Fin 2048) (d : Fin 64) (j : S16x2048x64.Idx)
    (h0 : (j 0).val = win0_2.index t (0 : Fin 3)) (h1 : (j 1).val = win0_2.index t (1 : Fin 3) * 2048 + k.val)
    (h2 : (j 2).val = win0_2.index t (2 : Fin 3) * 64 + d.val) :
    iblk m c 2 t (ix3 (0 : Fin 1) k d) = V m c main_v2 j := by
  show V m c main_v2 (((cfg0.win 2).blk t).view.emb (ix3 (0 : Fin 1) k d)) = V m c main_v2 j
  refine congrArg (V m c main_v2) (funext fun a => Fin.ext ?_)
  match a with
  | ⟨0, _⟩ => show win0_2.index t (0 : Fin 3) * 1 + 1 * 0 = (j 0).val; omega
  | ⟨1, _⟩ => show win0_2.index t (1 : Fin 3) * 2048 + 1 * k.val = (j 1).val; omega
  | ⟨2, _⟩ => show win0_2.index t (2 : Fin 3) * 64 + 1 * d.val = (j 2).val; omega

/-- The rows of the mask the body loads at a step, entry (r, k): the mask the region finds, `r` rows below the load's
    row offset. -/
theorem mask_rows (c : Dev nD) (t : Fin cfg0.N) (r : Fin 256) (k : Fin 2048) (j : S2048x2048.Idx)
    (h0 : (j 0).val = win0_1.index t (0 : Fin 2) * 2048 + (k0_off1 (grid0.coords t) (0 : Fin 2) + r.val))
    (h1 : (j 1).val = win0_1.index t (1 : Fin 2) * 2048 + (k0_off1 (grid0.coords t) (1 : Fin 2) + k.val)) :
    View.ld (iblk m c 1 t) (Rect.unit (s := S2048x2048) (k0_off1 (grid0.coords t)) S256x2048.size (k0_off1_inb (grid0.coords t)))
        (ix2 r k) = V m c main_v1 j := by
  show V m c main_v1 (((cfg0.win 1).blk t).view.emb
    ((Rect.unit (s := S2048x2048) (k0_off1 (grid0.coords t)) S256x2048.size (k0_off1_inb (grid0.coords t))).emb (ix2 r k))) = V m c main_v1 j
  refine congrArg (V m c main_v1) (funext fun a => Fin.ext ?_)
  match a with
  | ⟨0, _⟩ => show win0_1.index t (0 : Fin 2) * 2048 + 1 * (k0_off1 (grid0.coords t) (0 : Fin 2) + 1 * r.val) = (j 0).val; omega
  | ⟨1, _⟩ => show win0_1.index t (1 : Fin 2) * 2048 + 1 * (k0_off1 (grid0.coords t) (1 : Fin 2) + 1 * k.val) = (j 1).val; omega

/-! ## What a step writes back is its block of the region's result -/

/-- Entry (u, r, d) of what step `t` stores is the region's result at the entry's place in the array. -/
theorem step_entry (c : Dev nD) (t : Fin cfg0.N) (y : S1x256x64.Idx) :
    k0_pay1 (View.ld (iblk m c 1 t) (Rect.unit (s := S2048x2048) (k0_off1 (grid0.coords t)) S256x2048.size (k0_off1_inb (grid0.coords t))))
        (iblk m c 0 t) (iblk m c 2 t) y
      = result m c (((cfg0.win 3).blk t).view.emb y) := by
  obtain ⟨u, r, d, rfl⟩ : ∃ (u : Fin 1) (r : Fin 256) (d : Fin 64), y = ix3 u r d := ⟨y 0, y 1, y 2, eq_ix3 y⟩
  obtain ⟨e00, e01, e02, e10, e11, e20, e21, e22, e32, b0, b1, o0, o1⟩ := index_facts t
  refine (Payload.stored_apply _ _ _ u r d).trans ?_
  have hr : r.val < 256 := r.isLt
  have hrow : win0_3.index t (1 : Fin 3) * 256 + r.val < 2048 := by omega
  have hu : u.val = 0 := by omega
  have hj : ((cfg0.win 3).blk t).view.emb (ix3 u r d)
      = ix3 (⟨win0_3.index t (0 : Fin 3), b0⟩ : Fin 16) (⟨win0_3.index t (1 : Fin 3) * 256 + r.val, hrow⟩ : Fin 2048) d := by
    funext a; apply Fin.ext
    match a with
    | ⟨0, _⟩ => show win0_3.index t (0 : Fin 3) * 1 + 1 * u.val = win0_3.index t (0 : Fin 3); omega
    | ⟨1, _⟩ => show win0_3.index t (1 : Fin 3) * 256 + 1 * r.val = win0_3.index t (1 : Fin 3) * 256 + r.val; omega
    | ⟨2, _⟩ => show win0_3.index t (2 : Fin 3) * 64 + 1 * d.val = d.val; omega
  rw [hj]
  unfold result
  rw [regionResult_apply]
  refine Finset.sum_congr rfl fun k _ => ?_
  have eL := left_block m c t r k
    (ix3 (⟨win0_3.index t (0 : Fin 3), b0⟩ : Fin 16) (⟨win0_3.index t (1 : Fin 3) * 256 + r.val, hrow⟩ : Fin 2048) k)
    e00.symm (by show win0_3.index t (1 : Fin 3) * 256 + r.val = win0_0.index t (1 : Fin 3) * 256 + r.val; omega)
    (by show k.val = win0_0.index t (2 : Fin 3) * 2048 + k.val; omega)
  have eM := mask_rows m c t r k (ix2 (⟨win0_3.index t (1 : Fin 3) * 256 + r.val, hrow⟩ : Fin 2048) k)
    (by show win0_3.index t (1 : Fin 3) * 256 + r.val = win0_1.index t (0 : Fin 2) * 2048 + (k0_off1 (grid0.coords t) (0 : Fin 2) + r.val); omega)
    (by show k.val = win0_1.index t (1 : Fin 2) * 2048 + (k0_off1 (grid0.coords t) (1 : Fin 2) + k.val); omega)
  have eR := right_block m c t k d
    (ix3 (⟨win0_3.index t (0 : Fin 3), b0⟩ : Fin 16) k d)
    e20.symm (by show k.val = win0_2.index t (1 : Fin 3) * 2048 + k.val; omega)
    (by show d.val = win0_2.index t (2 : Fin 3) * 64 + d.val; omega)
  rw [eL, eM, eR]

/-- What step `t` writes back is block `t` of the region's result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold outsAt0
  rw [Body.left_eq]
  funext y
  exact step_entry m c t y

/-! ## The blocks tile the result -/

/-- An index of the result is in step `t`'s block iff each coordinate is in the block's range on its axis. -/
theorem mem_block (t : Fin cfg0.N) (i : S16x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3).slice (win0_3.rect t)).set ↔ _
  rw [View.set_slice_whole, Rect.mem_set_unit]
  exact Iff.rfl

/-- Every index of the result is in the block of the step with block indices (head, row / 256, 0). -/
theorem covered (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- So after the region the result array holds the region's result. -/
theorem final (c : Dev nD) : (dats m 0 c).arrAt 3 cfg0.N = result m c :=
  (dats m 0 c).arrAt_eq_of_cover 3 (result m c) (fun t _ => flushed_eq m c t) (covered)

/-! ## The operation after the region, and the run -/

theorem tail_eq (c : Dev nD) : Pipeline.afterTail₀ cfgs (dats m) 0 (V0 m) [hostOps1] c main_v4
    = shapeCast S1x16x2048x64 (result m c) shapeCasts_S16x2048x64_S1x16x2048x64 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = result m c := (Pipeline.withArrays_arr spec0 launch0.win.arr_inj c _ _ 3).trans (final m c)
  rw [e]
  rfl

/-- The region's result with the leading unit axis restored is the masked product of the arguments. -/
theorem result_reshaped (c : Dev nD) :
    shapeCast S1x16x2048x64 (result m c) shapeCasts_S16x2048x64_S1x16x2048x64
      = maskedProduct (m ((c : Thread nD τ).loc main_arg0)) (m ((c : Thread nD τ).loc main_arg1)) (m ((c : Thread nD τ).loc main_arg2)) := by
  unfold result
  rw [found_left, found_mask, found_right]
  exact regionResult_reshaped _ _ _ _ _ _ _

/-- The run: every weakly fair execution terminates with the result at the masked product of the arguments and the
    arguments unchanged. -/
theorem run : θ_run defs (onTc (τ := τ) (main (F := Ideal))) ⟨m, fun _ => 0, ρ⟩ fun r => ∀ c : Dev nD,
      r.2.mem ((c.tc : Thread nD τ).loc main_v4)
        = maskedProduct (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v4 (Pipeline.mem_restRefs_of main_v4 (by decide) (by decide))).trans (tail_eq m c)).trans (result_reshaped m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  The five claims for the masked batched matrix product.

  The kernel computes, for sixteen heads, out[h] = (a[h] ∘ real(mask)) · b[h]: it masks each 256-row block of `a` entry by
  entry and multiplies it with the head's block of `b` into a zero accumulator. The reference masks the whole of `a`
  and contracts with `b`, batched over the heads. Over the extended reals both results are, at (u, h, i, d),
      Σ_j (a[u, h, i, j] · real(mask[0, 0, i, j])) · b[u, h, j, d]
  — the same terms summed over the same index, so no law beyond the equality of the terms is used and the finiteness of
  the inputs plays no part.

  The three programs run (terminate without fault, arguments unchanged) by their generated runs; the kernel's
  idealization rewrites nothing, so `preserves` is `True`; the two idealized programs end with the masked product
  of arguments that agree.
-/
import proofs.«149509_g11879879542650_cont_sun_m_840_4_alg».proof.Defs
import proofs.«149509_g11879879542650_cont_sun_m_840_4_alg».proof.Proof.Gen.Kernel
import proofs.«149509_g11879879542650_cont_sun_m_840_4_alg».proof.Proof.Gen.Kernel.Frame
import proofs.«149509_g11879879542650_cont_sun_m_840_4_alg».proof.Proof.Gen.KernelIdeal
import proofs.«149509_g11879879542650_cont_sun_m_840_4_alg».proof.Proof.Gen.KernelIdeal.Frame
import proofs.«149509_g11879879542650_cont_sun_m_840_4_alg».proof.Proof.Gen.ReferenceIdeal
import proofs.«149509_g11879879542650_cont_sun_m_840_4_alg».proof.Proof.Gen.Pre_finite_inputs
import proofs.«149509_g11879879542650_cont_sun_m_840_4_alg».proof.Proof.Gen.ReferenceIdeal.Run
import proofs.«149509_g11879879542650_cont_sun_m_840_4_alg».proof.Proof.Gen.ReferenceIdeal.Read
import proofs.«149509_g11879879542650_cont_sun_m_840_4_alg».proof.Proof.RefValue
import proofs.«149509_g11879879542650_cont_sun_m_840_4_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the masked product of their (agreeing) arguments. -/
theorem algebraic : Cert.algebraic_KernelIdeal_ReferenceIdeal := by
  intro m ρ m' ρ' _ hagree
  refine ⟨fun c => Cert.MaskedMatmul.maskedProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
